-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x1024x256 .f32) (main_arg1 : FVec F S32x1024x1024 .f32) (main_arg2 : FVec F S256x256 .f32) (main_arg3 : FVec F S256 .f32) (main_arg4 : FVec F S256x256 .f32) (main_arg5 : FVec F S256 .f32) (main_arg6 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S1x256 : Shape := ⟨2, ![1, 256]⟩
abbrev S2x1024x256 : Shape := ⟨3, ![2, 1024, 256]⟩
abbrev S2x1024x1024 : Shape := ⟨3, ![2, 1024, 1024]⟩
abbrev S2x1024 : Shape := ⟨2, ![2, 1024]⟩
abbrev S2x1024x1 : Shape := ⟨3, ![2, 1024, 1]⟩
abbrev S1x1x256 : Shape := ⟨3, ![1, 1, 256]⟩
abbrev S2048x256 : Shape := ⟨2, ![2048, 256]⟩

abbrev nBuf : Space → Nat
  | .hbm => 11
  | .vmem => 11
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S32x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S2x1024x1024, .f32⟩
  | .local _ .vmem, ⟨3, _⟩ => ⟨S2x1024x1024, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S2x1024x256, .f32⟩
  | .local _ .vmem, ⟨10, _⟩ => ⟨S2x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S2x1024x256_S2x1024x256_0_0_0 : ∀ a, (![0, 0, 0] : Fin 3 → Nat) a + S2x1024x256.size a ≤ S2x1024x256.size a
  h_S2x1024x256 : 0 < S2x1024x256.numel
  reduces_S2x1024x256_S2x1024 : S2x1024x256.Reduces [2] S2x1024
  shapeCasts_S2x1024_S2x1024x1 : S2x1024.ShapeCasts S2x1024x1
  broadcasts_S2x1024x1_S2x1024x256 : S2x1024x1.Broadcasts S2x1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S2x1024x256 : S1x1x256.Broadcasts S2x1024x256
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S2x1024x256_S2048x256 : S2x1024x256.ShapeCasts S2048x256
  inb_S256x256_S256x256_0_0 : ∀ a, (![0, 0] : Fin 2 → Nat) a + S256x256.size a ≤ S256x256.size a
  h_S256x256 : 0 < S256x256.numel
  shapeCasts_S2048x256_S2x1024x256 : S2048x256.ShapeCasts S2x1024x256
  dot_S2x1024x1024_S2x1024x256_S2x1024x256_2_1_1_2_0_0_wf : DotDims.WF S2x1024x1024 S2x1024x256 S2x1024x256 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S32x1024x256.size a
  hwx0_0 : ∀ i : grid0.Coords, EltTy.bits .f32 = 32 ∨ (Rect.block (s := S32x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S32x1024x1024.size a
  hwx0_1 : ∀ i : grid0.Coords, EltTy.bits .f32 = 32 ∨ (Rect.block (s := S32x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1024x256.size a ≤ S32x1024x256.size a
  hwx0_7 : ∀ i : grid0.Coords, EltTy.bits .f32 = 32 ∨ (Rect.block (s := S32x1024x256) S2x1024x256.size (cc0_transform_7 i) (hinb0_7 i)).WholeWords (EltTy.packing .f32)

variable [Facts₀]

def dot_S2x1024x1024_S2x1024x256_S2x1024x256_2_1_1_2_0_0 : DotDims S2x1024x1024 S2x1024x256 S2x1024x256 where
  lhsContracting := [2]
  rhsContracting := [1]
  lhsNonContracting := [1]
  rhsNonContracting := [2]
  lhsBatch := [0]
  rhsBatch := [0]
  wf := dot_S2x1024x1024_S2x1024x256_S2x1024x256_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S256x256 : Shape := ⟨2, ![256, 256]⟩
abbrev S256 : Shape := ⟨1, ![256]⟩
abbrev S_ : Shape := ⟨0, ![]⟩
abbrev S32x1024 : Shape := ⟨2, ![32, 1024]⟩
abbrev S32x1024x1 : Shape := ⟨3, ![32, 1024, 1]⟩
abbrev S1x1x256 : Shape := ⟨3, ![1, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S32x1024, .f32⟩
  | .hbm, ⟨9, _⟩ => ⟨S32x1024x1, .f32⟩
  | .hbm, ⟨10, _⟩ => ⟨S_, .f32⟩
  | .hbm, ⟨11, _⟩ => ⟨S32x1024x1, .f32⟩
  | .hbm, ⟨12, _⟩ => ⟨S32x1024x1, .f32⟩
  | .hbm, ⟨13, _⟩ => ⟨S32x1024x256, .f32⟩
  | .hbm, ⟨14, _⟩ => ⟨S32x1024x256, .f32⟩
  | .hbm, ⟨15, _⟩ => ⟨S32x1024x256, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S_, .f32⟩
  | .hbm, ⟨20, _⟩ => ⟨S32x1024x1, .f32⟩
  | .hbm, ⟨21, _⟩ => ⟨S32x1024x1, .f32⟩
  | .hbm, ⟨22, _⟩ => ⟨S32x1024x256, .f32⟩
  | .hbm, ⟨23, _⟩ => ⟨S32x1024x256, .f32⟩
  | .hbm, ⟨24, _⟩ => ⟨S_, .f32⟩
  | .hbm, ⟨25, _⟩ => ⟨S32x1024x1, .f32⟩
  | .hbm, ⟨26, _⟩ => ⟨S32x1024x1, .f32⟩
  | .hbm, ⟨27, _⟩ => ⟨S32x1024x1, .f32⟩
  | .hbm, ⟨28, _⟩ => ⟨S32x1024x256, .f32⟩
  | .hbm, ⟨29, _⟩ => ⟨S32x1024x256, .f32⟩
  | .hbm, ⟨30, _⟩ => ⟨S1x1x256, .f32⟩
  | .hbm, ⟨31, _⟩ => ⟨S32x1024x256, .f32⟩
  | .hbm, ⟨32, _⟩ => ⟨S32x1024x256, .f32⟩
  | .hbm, ⟨33, _⟩ => ⟨S1x1x256, .f32⟩
  | .hbm, ⟨34, _⟩ => ⟨S32x1024x256, .f32⟩
  | .hbm, ⟨35, _⟩ => ⟨S32x1024x256, .f32⟩
  | .hbm, ⟨36, _⟩ => ⟨S32x1024x256, .f32⟩
  | .hbm, ⟨37, _⟩ => ⟨S32x1024x256, .f32⟩
  | .hbm, ⟨38, _⟩ => ⟨S1x1x256, .f32⟩
  | .hbm, ⟨39, _⟩ => ⟨S32x1024x256, .f32⟩
  | .hbm, ⟨40, _⟩ => ⟨S32x1024x256, .f32⟩
  | .hbm, ⟨41, _⟩ => ⟨S32x1024x256, .f32⟩
  | .hbm, ⟨42, _⟩ => ⟨S32x1024x256, .f32⟩
  | .hbm, ⟨43, _⟩ => ⟨S_, .f32⟩
  | .hbm, ⟨44, _⟩ => ⟨S32x1024x256, .f32⟩
  | .hbm, ⟨45, _⟩ => ⟨S32x1024x256, .f32⟩
  | .hbm, ⟨46, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S_S32x1024x256 : S_.BroadcastsInDim S32x1024x256 (![] : Fin 0 → Fin S32x1024x256.rank)
  dot_S32x1024x1024_S32x1024x256_S32x1024x256_2_1_1_2_0_0_wf : DotDims.WF S32x1024x1024 S32x1024x256 S32x1024x256 [2] [1] [1] [2] [0] [0]
  dot_S32x1024x256_S256x256_S32x1024x256_2_0_01_1_n_n_wf : DotDims.WF S32x1024x256 S256x256 S32x1024x256 [2] [0] [0, 1] [1] [] []

variable [Facts₀]

def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf
def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf

class Facts : Prop extends Facts₀ where

variable [Facts]
-- ==== Proof.Spec.lean ====
/-
  The specification: a pre-norm residual graph layer over the extended reals, as ONE function of its arguments.

  A batch holds 32 graphs; a graph has 1024 nodes with 256 features each (a matrix X) and a dense 1024 x 1024
  adjacency A.  Each node's feature row is layer-normalised — centred by its mean, scaled by the reciprocal square
  root of its variance plus a small constant, then scaled and shifted feature by feature by gamma and beta — giving H.
  Messages are aggregated along the edges, A · H, and the layer's update is
      X + max ((A · H) · W_rel + b_rel + H · W_root, 0).
  Nothing couples two graphs, so the layer of the batch is the layer of each graph: that is what lets a computation
  that handles two graphs at a time produce the same array.  Sums are finite sums on the extended reals, written in
  the one association used throughout: the relational term plus the bias first, then the root term.
-/
import Idealize.ShloMosaic.PureOps.Ideal
import Idealize.ShloMosaic.Lib.ValueIdx

noncomputable section

open scoped BigOperators

namespace Cert.Gnn

open Idealize.ShloMosaic Idealize.ShloMosaic.ValueIdx

/-- The feature count 256 as the float it is written as. -/
abbrev nFeat : EReal := Ideal.ofBits .f32 0x43800000#32
/-- The small constant added to a variance before the reciprocal square root (the float nearest 1e-5). -/
abbrev epsVar : EReal := Ideal.ofBits .f32 0x3727C5AC#32
/-- The float zero the update is clamped against. -/
abbrev zeroF : EReal := Ideal.ofBits .f32 0x00000000#32

/-- The mean of a feature row. -/
def mean (xr : Fin 256 → EReal) : EReal := Ideal.div (∑ k : Fin 256, xr k) nFeat

/-- A feature row centred by its mean. -/
def centred (xr : Fin 256 → EReal) (c : Fin 256) : EReal := xr c - mean xr

/-- The variance of a feature row: the mean of the squares of the centred row. -/
def variance (xr : Fin 256 → EReal) : EReal :=
  Ideal.div (∑ k : Fin 256, centred xr k * centred xr k) nFeat

/-- The layer-normalised row: centred, scaled by 1 / sqrt (variance + eps), then by gamma, shifted by beta. -/
def norm (γ β xr : Fin 256 → EReal) (c : Fin 256) : EReal :=
  centred xr c * Ideal.rsqrt (variance xr + epsVar) * γ c + β c

/-- The aggregated messages of node i: the sum over the nodes j of A i j times j's normalised row. -/
def aggregate (γ β : Fin 256 → EReal) (X : Fin 1024 → Fin 256 → EReal) (A : Fin 1024 → Fin 1024 → EReal)
    (i : Fin 1024) (c : Fin 256) : EReal :=
  ∑ j : Fin 1024, A i j * norm γ β (X j) c

/-- One graph's layer at node i, output feature o. -/
def layer (Wrel : Fin 256 → Fin 256 → EReal) (brel : Fin 256 → EReal) (Wroot : Fin 256 → Fin 256 → EReal)
    (γ β : Fin 256 → EReal) (X : Fin 1024 → Fin 256 → EReal) (A : Fin 1024 → Fin 1024 → EReal)
    (i : Fin 1024) (o : Fin 256) : EReal :=
  X i o + max ((∑ c : Fin 256, aggregate γ β X A i c * Wrel c o) + brel o
    + ∑ c : Fin 256, norm γ β (X i) c * Wroot c o) zeroF

/-- THE RESULT ARRAY as a function of the seven argument arrays: at (g, i, o) the layer of graph g. -/
def result (x : (⟨3, ![32, 1024, 256]⟩ : Shape).Idx → EReal) (adj : (⟨3, ![32, 1024, 1024]⟩ : Shape).Idx → EReal)
    (wRel : (⟨2, ![256, 256]⟩ : Shape).Idx → EReal) (bRel : (⟨1, ![256]⟩ : Shape).Idx → EReal)
    (wRoot : (⟨2, ![256, 256]⟩ : Shape).Idx → EReal) (gamma beta : (⟨1, ![256]⟩ : Shape).Idx → EReal) :
    (⟨3, ![32, 1024, 256]⟩ : Shape).Idx → EReal := fun idx =>
  layer (fun c o => wRel (ix2 c o)) (fun o => bRel (ix1 o)) (fun c o => wRoot (ix2 c o))
    (fun c => gamma (ix1 c)) (fun c => beta (ix1 c))
    (fun r c => x (ix3 (idx 0) r c)) (fun i j => adj (ix3 (idx 0) i j)) (idx 1) (idx 2)

/-- The result read at an index given by its coordinates. -/
theorem result_ix3 (x : (⟨3, ![32, 1024, 256]⟩ : Shape).Idx → EReal) (adj : (⟨3, ![32, 1024, 1024]⟩ : Shape).Idx → EReal)
    (wRel : (⟨2, ![256, 256]⟩ : Shape).Idx → EReal) (bRel : (⟨1, ![256]⟩ : Shape).Idx → EReal)
    (wRoot : (⟨2, ![256, 256]⟩ : Shape).Idx → EReal) (gamma beta : (⟨1, ![256]⟩ : Shape).Idx → EReal)
    (g : Fin 32) (i : Fin 1024) (o : Fin 256) :
    result x adj wRel bRel wRoot gamma beta (ix3 g i o)
      = layer (fun c o => wRel (ix2 c o)) (fun o => bRel (ix1 o)) (fun c o => wRoot (ix2 c o))
          (fun c => gamma (ix1 c)) (fun c => beta (ix1 c))
          (fun r c => x (ix3 g r c)) (fun i j => adj (ix3 g i j)) i o := rfl

end Cert.Gnn

end
-- ==== Proof.LibRank3Layout.lean ====
/-
  Rank-3 layout operations read at an index given by its three coordinates, for any sizes.

  A matrix [a, b] viewed as [a, b, 1] (a trailing unit axis added) reads, at (p, q, 0), the matrix at (p, q); a matrix
  [b, c] viewed as [1, b, c] (a leading unit axis added) reads, at (0, q, r), the matrix at (q, r).  An array [a, b, 1]
  broadcast along its last axis to [a, b, c] reads, at (p, q, r), the array at (p, q, 0); an array [1, b, c] broadcast
  along its first axis to [a, b, c] reads, at (p, q, r), the array at (0, q, r).  And over the extended reals the sum of an
  [a, b, c] array along its last axis, started from the zero word, is at (p, q) the finite sum over r of the entries
  (p, q, r).  Each is one instance of the library's read-at-an-index lemma for the operation, with the coordinate
  arithmetic discharged once for all sizes.
-/
import Idealize.ShloMosaic.Lib.ValueIdx
import Idealize.ShloMosaic.Lib.Pipeline.Value
import Idealize.ShloMosaic.PureOps.Ideal.Laws

noncomputable section

open scoped BigOperators

namespace Idealize.ShloMosaic.Rank3

open Idealize.ShloMosaic Idealize.ShloMosaic.ValueIdx

variable {α : Type}

/-- A trailing unit axis added to a matrix: entry (p, q, 0) of the view is entry (p, q). -/
theorem castAddLast_apply {a b : Nat} (v : (⟨2, ![a, b]⟩ : Shape).Idx → α)
    (h : (⟨2, ![a, b]⟩ : Shape).ShapeCasts ⟨3, ![a, b, 1]⟩) (p : Fin a) (q : Fin b) (z : Fin 1) :
    shapeCast (⟨3, ![a, b, 1]⟩ : Shape) v h (ix3 p q z) = v (ix2 p q) := by
  refine shapeCast_apply v h (ix3 p q z) (ix2 p q) ?_
  rw [Shape.rowMajor_val_two, Shape.rowMajor_val_three]
  show p.val * b + q.val = (p.val * b + q.val) * 1 + z.val
  have := z.isLt
  omega

/-- A leading unit axis added to a matrix: entry (0, q, r) of the view is entry (q, r). -/
theorem castAddFirst_apply {b c : Nat} (v : (⟨2, ![b, c]⟩ : Shape).Idx → α)
    (h : (⟨2, ![b, c]⟩ : Shape).ShapeCasts ⟨3, ![1, b, c]⟩) (z : Fin 1) (q : Fin b) (r : Fin c) :
    shapeCast (⟨3, ![1, b, c]⟩ : Shape) v h (ix3 z q r) = v (ix2 q r) := by
  refine shapeCast_apply v h (ix3 z q r) (ix2 q r) ?_
  rw [Shape.rowMajor_val_two, Shape.rowMajor_val_three]
  show q.val * c + r.val = (z.val * b + q.val) * c + r.val
  have hz : z.val = 0 := by have := z.isLt; omega
  rw [hz, Nat.zero_mul, Nat.zero_add]

/-- A broadcast along the last axis: entry (p, q, r) is the operand's entry (p, q, 0). -/
theorem bcastLast_apply {a b c : Nat} (v : (⟨3, ![a, b, 1]⟩ : Shape).Idx → α)
    (h : (⟨3, ![a, b, 1]⟩ : Shape).Broadcasts ⟨3, ![a, b, c]⟩) (p : Fin a) (q : Fin b) (r : Fin c) :
    broadcastTo (⟨3, ![a, b, c]⟩ : Shape) v h (ix3 p q r) = v (ix3 p q (0 : Fin 1)) :=
  broadcastTo_apply v h (ix3 p q r) (ix3 p q (0 : Fin 1)) (fun d => match d with
    | ⟨0, _⟩ => by
        show p.val = if a = 1 then 0 else p.val
        by_cases ha : a = 1
        · rw [if_pos ha]; have := p.isLt; omega
        · rw [if_neg ha]
    | ⟨1, _⟩ => by
        show q.val = if b = 1 then 0 else q.val
        by_cases hb : b = 1
        · rw [if_pos hb]; have := q.isLt; omega
        · rw [if_neg hb]
    | ⟨2, _⟩ => by show 0 = if (1 : Nat) = 1 then 0 else r.val; rw [if_pos rfl])

/-- A broadcast along the first axis: entry (p, q, r) is the operand's entry (0, q, r). -/
theorem bcastFirst_apply {a b c : Nat} (v : (⟨3, ![1, b, c]⟩ : Shape).Idx → α)
    (h : (⟨3, ![1, b, c]⟩ : Shape).Broadcasts ⟨3, ![a, b, c]⟩) (p : Fin a) (q : Fin b) (r : Fin c) :
    broadcastTo (⟨3, ![a, b, c]⟩ : Shape) v h (ix3 p q r) = v (ix3 (0 : Fin 1) q r) :=
  broadcastTo_apply v h (ix3 p q r) (ix3 (0 : Fin 1) q r) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb]
    | ⟨2, _⟩ => by
        show r.val = if c = 1 then 0 else r.val
        by_cases hc : c = 1
        · rw [if_pos hc]; have := r.isLt; omega
        · rw [if_neg hc])

/-- Over the extended reals, the sum along the last axis started from the zero word: entry (p, q) is the finite sum
    over r of the entries (p, q, r). -/
theorem sumLast_apply {a b c : Nat} (v : FVec Ideal (⟨3, ![a, b, c]⟩ : Shape) .f32)
    (h : (⟨3, ![a, b, c]⟩ : Shape).Reduces [(2 : Fin 3)] ⟨2, ![a, b]⟩) (hφ : FKind.Formats .f32)
    (hacc : (0x00000000#32 : BitVec 32) = FKind.add.neutral .f32 hφ) (p : Fin a) (q : Fin b) :
    multiReduction (F := Ideal) .add [(2 : Fin 3)] (⟨2, ![a, b]⟩ : Shape) v 0x00000000#32 h hφ hacc (ix2 p q)
      = ∑ r : Fin c, v (ix3 p q r) := by
  refine (Ideal.multiReduction_add_single v 0x00000000#32 h hφ hacc (ix2 p q)).trans ?_
  show ∑ r : Fin c, v (h.lift (ix2 p q) r) = ∑ r : Fin c, v (ix3 p q r)
  refine Finset.sum_congr rfl fun r _ => congrArg v (funext fun d => Fin.ext ?_)
  match d with
  | ⟨0, _⟩ => rfl
  | ⟨1, _⟩ => rfl
  | ⟨2, _⟩ => rfl

end Idealize.ShloMosaic.Rank3

end
-- ==== Proof.LibRowBroadcast3.lean ====
/-
  A row vector laid out along the last axis of a rank-3 array, for any sizes.  A [1, c] row, viewed as [1, 1, c] (a
  leading unit axis added) and broadcast along both leading axes to [a, b, c], reads at (p, q, r) the row's entry
  (0, r): every (p, q) fibre of the result is the row itself.  This is how a per-feature parameter (a scale, a shift,
  a bias) meets an array whose last axis is the feature axis.
-/
import Idealize.ShloMosaic.Lib.ValueIdx
import Idealize.ShloMosaic.Lib.Pipeline.Value

namespace Cert.Lib.RowBroadcast3

open Idealize.ShloMosaic Idealize.ShloMosaic.ValueIdx

variable {α : Type}

/-- A [1, 1, c] array broadcast along both leading axes: entry (p, q, r) is the operand's entry (0, 0, r). -/
theorem bcastLead2_apply {a b c : Nat} (v : (⟨3, ![1, 1, c]⟩ : Shape).Idx → α)
    (h : (⟨3, ![1, 1, c]⟩ : Shape).Broadcasts ⟨3, ![a, b, c]⟩) (p : Fin a) (q : Fin b) (r : Fin c) :
    broadcastTo (⟨3, ![a, b, c]⟩ : Shape) v h (ix3 p q r) = v (ix3 (0 : Fin 1) (0 : Fin 1) r) :=
  broadcastTo_apply v h (ix3 p q r) (ix3 (0 : Fin 1) (0 : Fin 1) r) (fun d => match d with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by
        show r.val = if c = 1 then 0 else r.val
        by_cases hc : c = 1
        · rw [if_pos hc]; have := r.isLt; omega
        · rw [if_neg hc])

/-- A [1, c] row viewed as [1, 1, c]: entry (0, 0, r) of the view is the row's entry (0, r). -/
theorem rowAddLead_apply {c : Nat} (v : (⟨2, ![1, c]⟩ : Shape).Idx → α)
    (h : (⟨2, ![1, c]⟩ : Shape).ShapeCasts ⟨3, ![1, 1, c]⟩) (z0 z1 z : Fin 1) (r : Fin c) :
    shapeCast (⟨3, ![1, 1, c]⟩ : Shape) v h (ix3 z0 z1 r) = v (ix2 z r) := by
  refine shapeCast_apply v h (ix3 z0 z1 r) (ix2 z r) ?_
  rw [Shape.rowMajor_val_two, Shape.rowMajor_val_three]
  show z.val * c + r.val = (z0.val * 1 + z1.val) * c + r.val
  have h0 : z0.val = 0 := by have := z0.isLt; omega
  have h1 : z1.val = 0 := by have := z1.isLt; omega
  have h2 : z.val = 0 := by have := z.isLt; omega
  rw [h0, h1, h2]

/-- THE COMPOSITE: a [1, c] row, recast to itself, viewed as [1, 1, c] and broadcast to [a, b, c], read at (p, q, r),
    is the row's entry (0, r). -/
theorem rowBcast_apply {a b c : Nat} (v : (⟨2, ![1, c]⟩ : Shape).Idx → α)
    (h0 : (⟨2, ![1, c]⟩ : Shape).ShapeCasts ⟨2, ![1, c]⟩)
    (h1 : (⟨2, ![1, c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo (⟨3, ![a, b, c]⟩ : Shape)
        (shapeCast (⟨3, ![1, 1, c]⟩ : Shape) (shapeCast (⟨2, ![1, c]⟩ : Shape) v h0) h1) h2 (ix3 p q r)
      = v (ix2 (0 : Fin 1) r) :=
  (bcastLead2_apply _ h2 p q r).trans
    ((rowAddLead_apply _ h1 0 0 0 r).trans (shapeCast_apply v h0 (ix2 (0 : Fin 1) r) (ix2 (0 : Fin 1) r) rfl))

end Cert.Lib.RowBroadcast3
-- ==== Proof.KernelNorm.lean ====
/-
  The kernel's first stage, read entry by entry: layer normalisation of a block of two graphs.

  The block is a [2, 1024, 256] array (graph, node, feature).  The body sums each feature row along the last axis,
  divides by 256, and spreads that mean back along the row; subtracts; squares; sums and divides again for the
  variance; adds the small constant, takes the reciprocal square root on the [2, 1024, 1] column of row statistics and
  spreads it back; multiplies; then scales and shifts by the two parameter rows, each a [1, 256] row laid along the
  feature axis of every (graph, node).  Read at (b, r, c), every one of these is the matching quantity of the single
  feature row (b, r): the result is that row layer-normalised, at feature c.
-/
import proofs.«118598_j82755429859956_2_alg».proof.Proof.Gen.KernelIdeal.Skeleton
import proofs.«118598_j82755429859956_2_alg».proof.Proof.Spec
import proofs.«118598_j82755429859956_2_alg».proof.Proof.LibRank3Layout
import proofs.«118598_j82755429859956_2_alg».proof.Proof.LibRowBroadcast3
import Idealize.ShloMosaic.Lib.ValueIdx
import Idealize.ShloMosaic.PureOps.Ideal.Laws

noncomputable section

open scoped BigOperators

namespace Cert.KernelIdeal.Norm

open Cert.KernelIdeal Cert.KernelIdeal.Gen Idealize.ShloMosaic Idealize.ShloMosaic.ValueIdx

/-- The feature row (b, r) of a block. -/
abbrev row (x : Vec Ideal S2x1024x256 .f32) (b : Fin 2) (r : Fin 1024) : Fin 256 → EReal := fun k => x (ix3 b r k)

/-- A [1, 256] parameter row as a function of the feature. -/
abbrev param (v : Vec Ideal S1x256 .f32) : Fin 256 → EReal := fun c => v (ix2 (0 : Fin 1) c)

/-- Every row's sum along the feature axis, divided by the word `w`, spread back along the row. -/
def rowStat (v : FVec Ideal S2x1024x256 .f32) (w : BitVec 32) : FVec Ideal S2x1024x1 .f32 :=
  divf (shapeCast S2x1024x1 (multiReduction .add [2] S2x1024 v 0x00000000#32 reduces_S2x1024x256_S2x1024 (.inl rfl) rfl)
    shapeCasts_S2x1024_S2x1024x1) (broadcast S2x1024x1 (Scalar.ofBits .f32 w))

/-- The block's rows centred by their means. -/
def centredArr (x : Vec Ideal S2x1024x256 .f32) : FVec Ideal S2x1024x256 .f32 :=
  subf x (broadcastTo S2x1024x256 (rowStat x 0x43800000#32) broadcasts_S2x1024x1_S2x1024x256)

/-- The reciprocal square root of each row's variance plus the small constant, spread along the row. -/
def invDevArr (x : Vec Ideal S2x1024x256 .f32) : FVec Ideal S2x1024x256 .f32 :=
  broadcastTo S2x1024x256
    (rsqrt (addf (rowStat (mulf (centredArr x) (centredArr x)) 0x43800000#32)
      (broadcast S2x1024x1 (Scalar.ofBits .f32 0x3727C5AC#32)))) broadcasts_S2x1024x1_S2x1024x256

/-- A [1, 256] parameter row laid along the feature axis of every (graph, node). -/
def paramArr (v : Vec Ideal S1x256 .f32) : FVec Ideal S2x1024x256 .f32 :=
  broadcastTo S2x1024x256 (shapeCast S1x1x256 (shapeCast S1x256 v shapeCasts_S1x256_S1x256) shapeCasts_S1x256_S1x1x256)
    broadcasts_S1x1x256_S2x1024x256

/-- The first stage is these four arrays combined entry by entry. -/
theorem pay2_eq (x : Vec Ideal S2x1024x256 .f32) (g s : Vec Ideal S1x256 .f32) :
    k0_pay2 (F := Ideal) x g s = addf (mulf (mulf (centredArr x) (invDevArr x)) (paramArr g)) (paramArr s) := rfl

/-- A row statistic at (b, r, 0): the row's sum over the word's value. -/
theorem rowStat_apply (v : FVec Ideal S2x1024x256 .f32) (w : BitVec 32) (b : Fin 2) (r : Fin 1024) :
    rowStat v w (ix3 b r (0 : Fin 1)) = Ideal.div (∑ k : Fin 256, v (ix3 b r k)) (Ideal.ofBits .f32 w) := by
  show Ideal.div (shapeCast S2x1024x1 (multiReduction (F := Ideal) .add [2] S2x1024 v 0x00000000#32
      reduces_S2x1024x256_S2x1024 (.inl rfl) rfl) shapeCasts_S2x1024_S2x1024x1 (ix3 b r (0 : Fin 1)))
    (Ideal.ofBits .f32 w) = _
  rw [Rank3.castAddLast_apply _ shapeCasts_S2x1024_S2x1024x1 b r 0]
  exact congrArg (Ideal.div · (Ideal.ofBits .f32 w))
    (Rank3.sumLast_apply v reduces_S2x1024x256_S2x1024 (.inl rfl) rfl b r)

/-- The centred block at (b, r, c): the row's entry minus the row's mean. -/
theorem centredArr_apply (x : Vec Ideal S2x1024x256 .f32) (b : Fin 2) (r : Fin 1024) (c : Fin 256) :
    centredArr x (ix3 b r c) = Cert.Gnn.centred (row x b r) c := by
  show x (ix3 b r c) - broadcastTo S2x1024x256 (rowStat x 0x43800000#32) broadcasts_S2x1024x1_S2x1024x256 (ix3 b r c) = _
  rw [Rank3.bcastLast_apply _ broadcasts_S2x1024x1_S2x1024x256 b r c, rowStat_apply]
  rfl

/-- The inverse deviation at (b, r, c): the reciprocal square root of the row's variance plus the constant. -/
theorem invDevArr_apply (x : Vec Ideal S2x1024x256 .f32) (b : Fin 2) (r : Fin 1024) (c : Fin 256) :
    invDevArr x (ix3 b r c) = Ideal.rsqrt (Cert.Gnn.variance (row x b r) + Cert.Gnn.epsVar) := by
  refine (Rank3.bcastLast_apply _ broadcasts_S2x1024x1_S2x1024x256 b r c).trans ?_
  show Ideal.rsqrt (rowStat (mulf (centredArr x) (centredArr x)) 0x43800000#32 (ix3 b r (0 : Fin 1))
    + Ideal.ofBits .f32 0x3727C5AC#32) = _
  rw [rowStat_apply]
  have hsq : ∀ k : Fin 256, mulf (centredArr x) (centredArr x) (ix3 b r k)
      = Cert.Gnn.centred (row x b r) k * Cert.Gnn.centred (row x b r) k := fun k => by
    show centredArr x (ix3 b r k) * centredArr x (ix3 b r k) = _
    rw [centredArr_apply]
  rw [Finset.sum_congr rfl fun k _ => hsq k]
  rfl

/-- A parameter row laid over the block, at (b, r, c): the parameter of feature c. -/
theorem paramArr_apply (v : Vec Ideal S1x256 .f32) (b : Fin 2) (r : Fin 1024) (c : Fin 256) :
    paramArr v (ix3 b r c) = param v c :=
  Cert.Lib.RowBroadcast3.rowBcast_apply v shapeCasts_S1x256_S1x256 shapeCasts_S1x256_S1x1x256
    broadcasts_S1x1x256_S2x1024x256 b r c

/-- THE FIRST STAGE at (b, r, c): the feature row (b, r) layer-normalised with the two parameter rows, at c. -/
theorem pay2_apply (x : Vec Ideal S2x1024x256 .f32) (g s : Vec Ideal S1x256 .f32) (b : Fin 2) (r : Fin 1024)
    (c : Fin 256) : k0_pay2 (F := Ideal) x g s (ix3 b r c) = Cert.Gnn.norm (param g) (param s) (row x b r) c := by
  rw [pay2_eq]
  show centredArr x (ix3 b r c) * invDevArr x (ix3 b r c) * paramArr g (ix3 b r c) + paramArr s (ix3 b r c) = _
  rw [centredArr_apply, invDevArr_apply, paramArr_apply, paramArr_apply]
  rfl

end Cert.KernelIdeal.Norm

end
-- ==== Proof.LibRank4Layout.lean ====
/-
  Reshapes, the middle-axes transpose and the `broadcast_in_dim`s of an attention layer's host code, read at an index
  given by its coordinates, for any sizes.

  * Reshapes (a row-major re-indexing): the last axis split in two, `[a,b,n] → [a,b,c,d]` with n = c·d, and merged
    back; the first two axes merged, `[a,b,c] → [m,c]` with m = a·b, and split back.  Each is stated with the merged
    coordinate and the two split coordinates related by a hypothesis (j = r·d + t), so no division appears.
  * The transpose that swaps the two middle axes of a rank-4 array, `[a,b,c,d] → [a,c,b,d]` (permutation [0,2,1,3]).
  * `broadcast_in_dim`: a scalar to any shape; a vector `[n]` as `[1,1,n]` and that along both leading axes to
    `[a,b,n]`; a matrix `[a,b]` as `[a,b,1]` and that along the last axis to `[a,b,c]`; a rank-3 array `[a,c,d]` as
    `[a,1,c,d]` and that along axis 1 to `[a,b,c,d]`; a rank-3 array `[a,b,c]` as `[a,b,c,1]` and that along the
    last axis to `[a,b,c,d]`.
-/
import Idealize.ShloMosaic.Lib.ValueIdx
import Idealize.ShloMosaic.Lib.Pipeline.Value

namespace Cert.Lib.Rank4Layout

open Idealize.ShloMosaic Idealize.ShloMosaic.ValueIdx

variable {α : Type}

/-! ## Reshapes -/

/-- The last axis split: entry (p, q, r, t) of the result is entry (p, q, j) of the source, j = r·d + t. -/
theorem splitLast_apply {a b n c d : Nat} (v : (⟨3, ![a, b, n]⟩ : Shape).Idx → α)
    (h : (⟨3, ![a, b, n]⟩ : Shape).ShapeCasts ⟨4, ![a, b, c, d]⟩) (hn : n = c * d)
    (p : Fin a) (q : Fin b) (r : Fin c) (t : Fin d) (j : Fin n) (hj : j.val = r.val * d + t.val) :
    shapeCast (⟨4, ![a, b, c, d]⟩ : Shape) v h (ix4 p q r t) = v (ix3 p q j) := by
  refine shapeCast_apply v h (ix4 p q r t) (ix3 p q j) ?_
  rw [Shape.rowMajor_val_three, Shape.rowMajor_val_four]
  show (p.val * b + q.val) * n + j.val = ((p.val * b + q.val) * c + r.val) * d + t.val
  rw [hj, hn]; ring

/-- The last two axes merged: entry (p, q, j) of the result is entry (p, q, r, t) of the source, j = r·d + t. -/
theorem mergeLast_apply {a b n c d : Nat} (v : (⟨4, ![a, b, c, d]⟩ : Shape).Idx → α)
    (h : (⟨4, ![a, b, c, d]⟩ : Shape).ShapeCasts ⟨3, ![a, b, n]⟩) (hn : n = c * d)
    (p : Fin a) (q : Fin b) (j : Fin n) (r : Fin c) (t : Fin d) (hj : j.val = r.val * d + t.val) :
    shapeCast (⟨3, ![a, b, n]⟩ : Shape) v h (ix3 p q j) = v (ix4 p q r t) := by
  refine shapeCast_apply v h (ix3 p q j) (ix4 p q r t) ?_
  rw [Shape.rowMajor_val_three, Shape.rowMajor_val_four]
  show ((p.val * b + q.val) * c + r.val) * d + t.val = (p.val * b + q.val) * n + j.val
  rw [hj, hn]; ring

/-- The first two axes merged: entry (i, r) of the result is entry (p, q, r) of the source, i = p·b + q. -/
theorem mergeFirst_apply {a b c m : Nat} (v : (⟨3, ![a, b, c]⟩ : Shape).Idx → α)
    (h : (⟨3, ![a, b, c]⟩ : Shape).ShapeCasts ⟨2, ![m, c]⟩)
    (i : Fin m) (r : Fin c) (p : Fin a) (q : Fin b) (hi : i.val = p.val * b + q.val) :
    shapeCast (⟨2, ![m, c]⟩ : Shape) v h (ix2 i r) = v (ix3 p q r) := by
  refine shapeCast_apply v h (ix2 i r) (ix3 p q r) ?_
  rw [Shape.rowMajor_val_three, Shape.rowMajor_val_two]
  show (p.val * b + q.val) * c + r.val = i.val * c + r.val
  rw [hi]

/-- The first axis split: entry (p, q, r) of the result is entry (i, r) of the source, i = p·b + q. -/
theorem splitFirst_apply {a b c m : Nat} (v : (⟨2, ![m, c]⟩ : Shape).Idx → α)
    (h : (⟨2, ![m, c]⟩ : Shape).ShapeCasts ⟨3, ![a, b, c]⟩)
    (p : Fin a) (q : Fin b) (r : Fin c) (i : Fin m) (hi : i.val = p.val * b + q.val) :
    shapeCast (⟨3, ![a, b, c]⟩ : Shape) v h (ix3 p q r) = v (ix2 i r) := by
  refine shapeCast_apply v h (ix3 p q r) (ix2 i r) ?_
  rw [Shape.rowMajor_val_three, Shape.rowMajor_val_two]
  show i.val * c + r.val = (p.val * b + q.val) * c + r.val
  rw [hi]

/-! ## The middle-axes transpose -/

/-- Entry (p, r, q, t) of the transpose is entry (p, q, r, t) of the source. -/
theorem swapMiddle_apply {a b c d : Nat} (v : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (t : Fin d) :
    transpose (⟨4, ![a, c, b, d]⟩ : Shape) [0, 2, 1, 3] v h (ix4 p r q t) = v (ix4 p q r t) := by
  refine transpose_apply [0, 2, 1, 3] v h (ix4 p r q t) (ix4 p q r t) fun bx => ?_
  match bx with
  | ⟨0, _⟩ => rfl
  | ⟨1, _⟩ => rfl
  | ⟨2, _⟩ => rfl
  | ⟨3, _⟩ => rfl

/-! ## `broadcast_in_dim` -/

/-- A coordinate kept by a broadcast: itself, or 0 when the axis has extent one (then it is 0 anyway). -/
theorem keep {a : Nat} (p : Fin a) : p.val = if a = 1 then 0 else p.val := by
  by_cases ha : a = 1
  · rw [if_pos ha]; have := p.isLt; omega
  · rw [if_neg ha]

/-- A coordinate on a unit axis of the operand is 0. -/
theorem unit (z : Fin 1) (x : Nat) : z.val = if (1 : Nat) = 1 then 0 else x := by
  rw [if_pos rfl]; have := z.isLt; omega

/-- A scalar to any shape: every entry is the scalar. -/
theorem scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 (fun ax => ax.elim0)

/-- A vector as `[1,1,n]`: entry (z0, z1, q) is the vector's entry q. -/
theorem vecTo11n_apply {n : Nat} (v : (⟨1, ![n]⟩ : Shape).Idx → α)
    (h : (⟨1, ![n]⟩ : Shape).BroadcastsInDim ⟨3, ![1, 1, n]⟩ (![2] : Fin 1 → Fin 3)) (z0 z1 : Fin 1) (q : Fin n) :
    broadcastInDim (⟨3, ![1, 1, n]⟩ : Shape) (![2] : Fin 1 → Fin 3) h v (ix3 z0 z1 q) = v (ix1 q) := by
  refine broadcastInDim_apply (![2] : Fin 1 → Fin 3) h v (ix3 z0 z1 q) (ix1 q) fun ax => ?_
  match ax with
  | ⟨0, _⟩ => exact keep q

/-- `[1,1,n]` along both leading axes: entry (p, q, r) is the operand's entry (0, 0, r). -/
theorem lead11n_apply {a b n : Nat} (v : (⟨3, ![1, 1, n]⟩ : Shape).Idx → α)
    (h : (⟨3, ![1, 1, n]⟩ : Shape).BroadcastsInDim ⟨3, ![a, b, n]⟩ (![0, 1, 2] : Fin 3 → Fin 3)) (p : Fin a) (q : Fin b) (r : Fin n) :
    broadcastInDim (⟨3, ![a, b, n]⟩ : Shape) (![0, 1, 2] : Fin 3 → Fin 3) h v (ix3 p q r) = v (ix3 (0 : Fin 1) (0 : Fin 1) r) := by
  refine broadcastInDim_apply (![0, 1, 2] : Fin 3 → Fin 3) h v (ix3 p q r) (ix3 (0 : Fin 1) (0 : Fin 1) r) fun ax => ?_
  match ax with
  | ⟨0, _⟩ => exact unit 0 p.val
  | ⟨1, _⟩ => exact unit 0 q.val
  | ⟨2, _⟩ => exact keep r

/-- A matrix as `[a,b,1]`: entry (p, q, z) is the matrix's entry (p, q). -/
theorem matToAb1_apply {a b : Nat} (v : (⟨2, ![a, b]⟩ : Shape).Idx → α)
    (h : (⟨2, ![a, b]⟩ : Shape).BroadcastsInDim ⟨3, ![a, b, 1]⟩ (![0, 1] : Fin 2 → Fin 3)) (p : Fin a) (q : Fin b) (z : Fin 1) :
    broadcastInDim (⟨3, ![a, b, 1]⟩ : Shape) (![0, 1] : Fin 2 → Fin 3) h v (ix3 p q z) = v (ix2 p q) := by
  refine broadcastInDim_apply (![0, 1] : Fin 2 → Fin 3) h v (ix3 p q z) (ix2 p q) fun ax => ?_
  match ax with
  | ⟨0, _⟩ => exact keep p
  | ⟨1, _⟩ => exact keep q

/-- `[a,b,1]` along the last axis: entry (p, q, r) is the operand's entry (p, q, 0). -/
theorem lastAb1_apply {a b c : Nat} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim (⟨3, ![a, b, c]⟩ : Shape) (![0, 1, 2] : Fin 3 → Fin 3) h v (ix3 p q r) = v (ix3 p q (0 : Fin 1)) := by
  refine broadcastInDim_apply (![0, 1, 2] : Fin 3 → Fin 3) h v (ix3 p q r) (ix3 p q (0 : Fin 1)) fun ax => ?_
  match ax with
  | ⟨0, _⟩ => exact keep p
  | ⟨1, _⟩ => exact keep q
  | ⟨2, _⟩ => exact unit 0 r.val

/-- A rank-3 array as `[a,1,c,d]`: entry (p, z, r, t) is the array's entry (p, r, t). -/
theorem r3ToA1cd_apply {a c d : Nat} (v : (⟨3, ![a, c, d]⟩ : Shape).Idx → α)
    (h : (⟨3, ![a, c, d]⟩ : Shape).BroadcastsInDim ⟨4, ![a, 1, c, d]⟩ (![0, 2, 3] : Fin 3 → Fin 4))
    (p : Fin a) (z : Fin 1) (r : Fin c) (t : Fin d) :
    broadcastInDim (⟨4, ![a, 1, c, d]⟩ : Shape) (![0, 2, 3] : Fin 3 → Fin 4) h v (ix4 p z r t) = v (ix3 p r t) := by
  refine broadcastInDim_apply (![0, 2, 3] : Fin 3 → Fin 4) h v (ix4 p z r t) (ix3 p r t) fun ax => ?_
  match ax with
  | ⟨0, _⟩ => exact keep p
  | ⟨1, _⟩ => exact keep r
  | ⟨2, _⟩ => exact keep t

/-- `[a,1,c,d]` along axis 1: entry (p, q, r, t) is the operand's entry (p, 0, r, t). -/
theorem axis1A1cd_apply {a b c d : Nat} (v : (⟨4, ![a, 1, c, d]⟩ : Shape).Idx → α)
    (h : (⟨4, ![a, 1, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p (0 : Fin 1) r t) := by
  refine broadcastInDim_apply (![0, 1, 2, 3] : Fin 4 → Fin 4) h v (ix4 p q r t) (ix4 p (0 : Fin 1) r t) fun ax => ?_
  match ax with
  | ⟨0, _⟩ => exact keep p
  | ⟨1, _⟩ => exact unit 0 q.val
  | ⟨2, _⟩ => exact keep r
  | ⟨3, _⟩ => exact keep t

/-- A rank-3 array as `[a,b,c,1]`: entry (p, q, r, z) is the array's entry (p, q, r). -/
theorem r3ToAbc1_apply {a b c : Nat} (v : (⟨3, ![a, b, c]⟩ : Shape).Idx → α)
    (h : (⟨3, ![a, b, c]⟩ : Shape).BroadcastsInDim ⟨4, ![a, b, c, 1]⟩ (![0, 1, 2] : Fin 3 → Fin 4))
    (p : Fin a) (q : Fin b) (r : Fin c) (z : Fin 1) :
    broadcastInDim (⟨4, ![a, b, c, 1]⟩ : Shape) (![0, 1, 2] : Fin 3 → Fin 4) h v (ix4 p q r z) = v (ix3 p q r) := by
  refine broadcastInDim_apply (![0, 1, 2] : Fin 3 → Fin 4) h v (ix4 p q r z) (ix3 p q r) fun ax => ?_
  match ax with
  | ⟨0, _⟩ => exact keep p
  | ⟨1, _⟩ => exact keep q
  | ⟨2, _⟩ => exact keep r

/-- `[a,b,c,1]` along the last axis: entry (p, q, r, t) is the operand's entry (p, q, r, 0). -/
theorem lastAbc1_apply {a b c d : Nat} (v : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p q r (0 : Fin 1)) := by
  refine broadcastInDim_apply (![0, 1, 2, 3] : Fin 4 → Fin 4) h v (ix4 p q r t) (ix4 p q r (0 : Fin 1)) fun ax => ?_
  match ax with
  | ⟨0, _⟩ => exact keep p
  | ⟨1, _⟩ => exact keep q
  | ⟨2, _⟩ => exact keep r
  | ⟨3, _⟩ => exact unit 0 t.val

end Cert.Lib.Rank4Layout
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibBatchedDot3.lean ====
/-
  A batched matrix product's contraction sum, for any sizes.  For dimension numbers over [B, M, K] and [B, K, N] that
  pair the two leading axes as the batch, contract the left operand's last axis with the right operand's middle axis,
  and keep the left operand's middle axis and the right operand's last (the einsum 'bij,bjk->bik'), the sum over the
  contraction index of the operands' products at output index (b, p, q) is the sum over k of L (b, p, k) * R (b, k, q).
  With it, a matmul into the zero accumulator and a host dot_general, read at (b, p, q) on the extended reals, are
  that sum: one plain matrix product per batch entry.
-/
import Idealize.ShloMosaic.PureOps.Ideal.Laws
import Idealize.ShloMosaic.Lib.ValueIdx

noncomputable section

open scoped BigOperators

namespace Cert.Lib.BatchedDot3

open Idealize.ShloMosaic Idealize.ShloMosaic.ValueIdx

/-- The contraction shape has one axis, of extent K; at output index (b, p, q) and the contraction index whose one
    coordinate is k the operands are read at (b, p, k) and (b, k, q). -/
theorem batched_idx {B M K N : Nat} (d : DotDims ⟨3, ![B, M, K]⟩ ⟨3, ![B, K, N]⟩ ⟨3, ![B, M, N]⟩)
    (hlc : d.lhsContracting = [2]) (hrc : d.rhsContracting = [1]) (hln : d.lhsNonContracting = [1])
    (hrn : d.rhsNonContracting = [2]) (hlb : d.lhsBatch = [0]) (hrb : d.rhsBatch = [0]) :
    ∃ (hr : d.contr.rank = 1) (hs : d.contr.size ⟨0, by omega⟩ = K),
      ∀ (b : Fin B) (p : Fin M) (q : Fin N) (k : Fin K),
        d.lhsIdx (ix3 b p q) ((contrEquiv1 d K hr hs).symm k) = ix3 b p k ∧
        d.rhsIdx (ix3 b p q) ((contrEquiv1 d K hr hs).symm k) = ix3 b k q := by
  obtain ⟨lc, rc, ln, rn, lb, rb, wf⟩ := d
  simp only at hlc hrc hln hrn hlb hrb
  subst hlc hrc hln hrn hlb hrb
  refine ⟨rfl, rfl, fun b p q k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl
    | ⟨2, _⟩ => exact Fin.ext rfl

/-- THE CONTRACTION SUM of a batched product at (b, p, q): the sum over k of L (b, p, k) * R (b, k, q). -/
theorem batched_sum {B M K N : Nat} (d : DotDims ⟨3, ![B, M, K]⟩ ⟨3, ![B, K, N]⟩ ⟨3, ![B, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (L : (⟨3, ![B, M, K]⟩ : Shape).Idx → EReal) (R : (⟨3, ![B, K, N]⟩ : Shape).Idx → EReal)
    (b : Fin B) (p : Fin M) (q : Fin N) :
    ∑ κ : d.contr.Idx, L (d.lhsIdx (ix3 b p q) κ) * R (d.rhsIdx (ix3 b p q) κ)
      = ∑ k : Fin K, L (ix3 b p k) * R (ix3 b k q) := by
  obtain ⟨hr, hs, h⟩ := batched_idx d hlc hrc hln hrn hlb hrb
  rw [← Equiv.sum_comp (contrEquiv1 d K hr hs).symm]
  exact Finset.sum_congr rfl fun k _ => by rw [(h b p q k).1, (h b p q k).2]

/-- A matmul of these dimension numbers into the zero accumulator, read at (b, p, q) on the extended reals. -/
theorem matmul_zero_batched {B M K N : Nat} {φ₁ φ₂ : FTy}
    (d : DotDims ⟨3, ![B, M, K]⟩ ⟨3, ![B, K, N]⟩ ⟨3, ![B, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (lhs : FVec Ideal ⟨3, ![B, M, K]⟩ φ₁) (rhs : FVec Ideal ⟨3, ![B, K, N]⟩ φ₂)
    (b : Fin B) (p : Fin M) (q : Fin N) :
    FloatOps.matmul d prec lhs rhs (constant ⟨3, ![B, M, N]⟩ .f32 0x00000000#32) (ix3 b p q)
      = ∑ k : Fin K, lhs (ix3 b p k) * rhs (ix3 b k q) :=
  (Ideal.matmul_constant_zero_apply d prec lhs rhs (ix3 b p q)).trans
    (batched_sum d hlc hrc hln hrn hlb hrb lhs rhs b p q)

/-- A host dot_general of these dimension numbers, read at (b, p, q) on the extended reals. -/
theorem dotGeneral_batched {B M K N : Nat} {φ₁ φ₂ : FTy}
    (d : DotDims ⟨3, ![B, M, K]⟩ ⟨3, ![B, K, N]⟩ ⟨3, ![B, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (sched : HostSchedule) (lhs : FVec Ideal ⟨3, ![B, M, K]⟩ φ₁)
    (rhs : FVec Ideal ⟨3, ![B, K, N]⟩ φ₂) (b : Fin B) (p : Fin M) (q : Fin N) :
    FloatOps.dotGeneral d prec sched lhs rhs (ix3 b p q) = ∑ k : Fin K, lhs (ix3 b p k) * rhs (ix3 b k q) :=
  (Ideal.dotGeneral_apply d prec sched lhs rhs (ix3 b p q)).trans
    (batched_sum d hlc hrc hln hrn hlb hrb lhs rhs b p q)

end Cert.Lib.BatchedDot3

end
-- ==== Proof.KernelLayer.lean ====
/-
  The kernel's products and its block, read entry by entry.

  With H the block's layer-normalised rows, the body multiplies the block's two adjacency matrices into H graph by
  graph (one batched product), stacks the two graphs' 1024 rows into one 2048-row matrix, multiplies by a weight
  matrix, and unstacks; it does the same with H itself and the other weight matrix.  Stacking sends row i of graph b to
  row b * 1024 + i and back, so at (b, i, o) the first product is the sum over features c of the aggregated messages of
  node i of graph b times W_rel (c, o), and the second the sum over c of H (b, i, c) times W_root (c, o).  The stored
  block adds the bias row, the second product, clamps at zero and adds the input: at (b, i, o) it is the layer of
  graph b of the block, at node i and output feature o.
-/
import proofs.«118598_j82755429859956_2_alg».proof.Proof.Gen.KernelIdeal.Value
import proofs.«118598_j82755429859956_2_alg».proof.Proof.KernelNorm
import proofs.«118598_j82755429859956_2_alg».proof.Proof.LibRank4Layout
import proofs.«118598_j82755429859956_2_alg».proof.Proof.LibPlainDot
import proofs.«118598_j82755429859956_2_alg».proof.Proof.LibBatchedDot3

noncomputable section

open scoped BigOperators

namespace Cert.KernelIdeal.Layer

open Cert.KernelIdeal Cert.KernelIdeal.Gen Cert.KernelIdeal.Norm Idealize.ShloMosaic Idealize.ShloMosaic.ValueIdx

/-- A [256, 256] weight matrix as a function of its two coordinates. -/
abbrev weight (w : Vec Ideal S256x256 .f32) : Fin 256 → Fin 256 → EReal := fun c o => w (ix2 c o)

/-- Graph b's node features in a block. -/
abbrev feats (x : Vec Ideal S2x1024x256 .f32) (b : Fin 2) : Fin 1024 → Fin 256 → EReal := fun r k => x (ix3 b r k)

/-- Graph b's adjacency in a block. -/
abbrev edges (a : Vec Ideal S2x1024x1024 .f32) (b : Fin 2) : Fin 1024 → Fin 1024 → EReal := fun i j => a (ix3 b i j)

/-- Row i of graph b in the stacked 2048-row matrix. -/
abbrev stacked (b : Fin 2) (i : Fin 1024) : Fin 2048 := ⟨b.val * 1024 + i.val, by have := b.isLt; have := i.isLt; omega⟩

/-- The batched product of the adjacencies into the normalised rows, at (b, i, c): node i's aggregated messages. -/
theorem agg_apply (x : Vec Ideal S2x1024x256 .f32) (g s : Vec Ideal S1x256 .f32) (a : Vec Ideal S2x1024x1024 .f32)
    (b : Fin 2) (i : Fin 1024) (c : Fin 256) :
    matmul (φ₁ := .f32) dot_S2x1024x1024_S2x1024x256_S2x1024x256_2_1_1_2_0_0 none a (k0_pay2 (F := Ideal) x g s)
        (constant S2x1024x256 .f32 0x00000000#32) (ix3 b i c)
      = Cert.Gnn.aggregate (param g) (param s) (feats x b) (edges a b) i c := by
  refine (Cert.Lib.BatchedDot3.matmul_zero_batched (φ₁ := .f32) dot_S2x1024x1024_S2x1024x256_S2x1024x256_2_1_1_2_0_0
    rfl rfl rfl rfl rfl rfl none a (k0_pay2 (F := Ideal) x g s) b i c).trans ?_
  exact Finset.sum_congr rfl fun j _ => by rw [pay2_apply]

/-- THE RELATIONAL TERM at (b, i, o): the aggregated messages of node i of graph b through W_rel. -/
theorem pay3_apply (x : Vec Ideal S2x1024x256 .f32) (g s : Vec Ideal S1x256 .f32) (a : Vec Ideal S2x1024x1024 .f32)
    (w : Vec Ideal S256x256 .f32) (b : Fin 2) (i : Fin 1024) (o : Fin 256) :
    k0_pay3 (F := Ideal) x g s a w (ix3 b i o)
      = ∑ c : Fin 256, Cert.Gnn.aggregate (param g) (param s) (feats x b) (edges a b) i c * weight w c o := by
  unfold k0_pay3
  refine (Cert.Lib.Rank4Layout.splitFirst_apply _ shapeCasts_S2048x256_S2x1024x256 b i o (stacked b i) rfl).trans ?_
  refine (Cert.Bridge.matmul_zero_plain (φ₂ := .f32) dot_S2048x256_S256x256_S2048x256_1_0_0_1_n_n rfl rfl rfl rfl rfl rfl
    (some .fp32) _ w (stacked b i) o).trans ?_
  refine Finset.sum_congr rfl fun c _ => ?_
  rw [Cert.Lib.Rank4Layout.mergeFirst_apply _ shapeCasts_S2x1024x256_S2048x256 (stacked b i) c b i rfl, agg_apply]

/-- THE ROOT TERM at (b, i, o): node i's own normalised row through W_root. -/
theorem pay4_apply (x : Vec Ideal S2x1024x256 .f32) (g s : Vec Ideal S1x256 .f32) (w : Vec Ideal S256x256 .f32)
    (b : Fin 2) (i : Fin 1024) (o : Fin 256) :
    k0_pay4 (F := Ideal) x g s w (ix3 b i o)
      = ∑ c : Fin 256, Cert.Gnn.norm (param g) (param s) (feats x b i) c * weight w c o := by
  unfold k0_pay4
  refine (Cert.Lib.Rank4Layout.splitFirst_apply _ shapeCasts_S2048x256_S2x1024x256 b i o (stacked b i) rfl).trans ?_
  refine (Cert.Bridge.matmul_zero_plain (φ₂ := .f32) dot_S2048x256_S256x256_S2048x256_1_0_0_1_n_n rfl rfl rfl rfl rfl rfl
    (some .fp32) _ w (stacked b i) o).trans ?_
  refine Finset.sum_congr rfl fun c _ => ?_
  rw [Cert.Lib.Rank4Layout.mergeFirst_apply _ shapeCasts_S2x1024x256_S2048x256 (stacked b i) c b i rfl, pay2_apply]

/-- The stored block reads its operands at the block index itself, the bias row at its feature. -/
theorem at_self (b : Fin 2) (i : Fin 1024) (o : Fin 256) :
    Cert.KernelIdeal.Value.ix7_0 (ix3 b i o) = ix3 b i o ∧ Cert.KernelIdeal.Value.ix7_1 (ix3 b i o) = ix3 b i o
      ∧ Cert.KernelIdeal.Value.ix7_2 (ix3 b i o) = ix2 (0 : Fin 1) o
      ∧ Cert.KernelIdeal.Value.ix7_3 (ix3 b i o) = ix3 b i o := by
  refine ⟨?_, ?_, ?_, ?_⟩
  · funext d; match d with | ⟨0, _⟩ => rfl | ⟨1, _⟩ => rfl | ⟨2, _⟩ => rfl
  · funext d; match d with | ⟨0, _⟩ => rfl | ⟨1, _⟩ => rfl | ⟨2, _⟩ => rfl
  · funext d; match d with | ⟨0, _⟩ => rfl | ⟨1, _⟩ => rfl
  · funext d; match d with | ⟨0, _⟩ => rfl | ⟨1, _⟩ => rfl | ⟨2, _⟩ => rfl

/-- THE BLOCK at (b, i, o): the layer of graph b of the block, from the block's features and adjacency, the two weight
    matrices, the bias row and the two normalisation rows. -/
theorem block_apply (x : Vec Ideal S2x1024x256 .f32) (g s : Vec Ideal S1x256 .f32) (a : Vec Ideal S2x1024x1024 .f32)
    (wr : Vec Ideal S256x256 .f32) (br : Vec Ideal S1x256 .f32) (wo : Vec Ideal S256x256 .f32)
    (b : Fin 2) (i : Fin 1024) (o : Fin 256) :
    Cert.KernelIdeal.Value.E7 (F := Ideal) x g s a wr br wo (ix3 b i o)
      = Cert.Gnn.layer (weight wr) (param br) (weight wo) (param g) (param s) (feats x b) (edges a b) i o := by
  obtain ⟨h0, h1, h2, h3⟩ := at_self b i o
  show x (Cert.KernelIdeal.Value.ix7_0 (ix3 b i o))
      + max (k0_pay3 (F := Ideal) x g s a wr (Cert.KernelIdeal.Value.ix7_1 (ix3 b i o))
          + br (Cert.KernelIdeal.Value.ix7_2 (ix3 b i o))
          + k0_pay4 (F := Ideal) x g s wo (Cert.KernelIdeal.Value.ix7_3 (ix3 b i o)))
        (Ideal.ofBits .f32 0x00000000#32) = _
  rw [h0, h1, h2, h3, pay3_apply, pay4_apply]
  rfl

end Cert.KernelIdeal.Layer

end
-- ==== Proof.BlockReads.lean ====
/-
  The kernel's input blocks, read off the argument arrays.

  The grid has 16 points.  At point t the feature window and the adjacency window each hold graphs 2t and 2t + 1 of
  their argument (block index (t, 0, 0) of blocks of two graphs), the output window writes the same two graphs back,
  and the five parameter windows hold their whole arrays at every point (block index (0, 0)).  An entry of a block is
  the argument's entry at block index times block extent plus the position inside the block, axis by axis.  The three
  parameter rows are [1, 256] re-layings of length-256 arguments made before the kernel starts, so entry (0, o) of such
  a row is entry o of its argument.
-/
import proofs.«118598_j82755429859956_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The printed index maps, decided over the 16 grid points: the two graph-carrying inputs move with the output along
    the graph axis, which advances one block per point; every other block index is zero. -/
theorem idx_facts : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A grid point is below 16. -/
theorem point_lt (t : Fin cfg0.N) : t.val < 16 := lt_of_lt_of_eq t.isLt N_0

/-- The graph that position b of point t's block holds. -/
def graphOf (t : Fin cfg0.N) (b : Fin 2) : Fin 32 :=
  ⟨t.val * 2 + b.val, by have := point_lt t; have := b.isLt; omega⟩

/-! ## The parameter rows as the kernel finds them -/

/-- A length-256 vector re-laid as a [1, 256] row: entry (0, o) is entry o. -/
theorem rowOf_apply (v : S256.Idx → EReal) (z : Fin 1) (o : Fin 256) :
    shapeCast S1x256 v shapeCasts_S256_S1x256 (ix2 z o) = v (ix1 o) := by
  refine shapeCast_apply v shapeCasts_S256_S1x256 (ix2 z o) (ix1 o) ?_
  rw [Shape.rowMajor_val_one, Shape.rowMajor_val_two]
  show o.val = z.val * 256 + o.val
  have : z.val = 0 := by have := z.isLt; omega
  omega

/-- The bias row is the bias argument re-laid. -/
theorem V_bias (c : Dev nD) : (V m c main_v0 : S1x256.Idx → EReal)
    = shapeCast S1x256 (m ((c : Thread nD τ).loc main_arg3) : S256.Idx → EReal) shapeCasts_S256_S1x256 := by
  dsimp only [V, hostOps0]; after_results; rfl

/-- The scale row is the scale argument re-laid. -/
theorem V_scale (c : Dev nD) : (V m c main_v1 : S1x256.Idx → EReal)
    = shapeCast S1x256 (m ((c : Thread nD τ).loc main_arg5) : S256.Idx → EReal) shapeCasts_S256_S1x256 := by
  dsimp only [V, hostOps0]; after_results; rfl

/-- The shift row is the shift argument re-laid. -/
theorem V_shift (c : Dev nD) : (V m c main_v2 : S1x256.Idx → EReal)
    = shapeCast S1x256 (m ((c : Thread nD τ).loc main_arg6) : S256.Idx → EReal) shapeCasts_S256_S1x256 := by
  dsimp only [V, hostOps0]; after_results; rfl

/-! ## Each input window's block at a point -/

/-- The feature block at point t: position (b, r, k) is the feature argument at (graph of b, r, k). -/
theorem feat_block (c : Dev nD) (t : Fin cfg0.N) (b : Fin 2) (r : Fin 1024) (k : Fin 256) :
    (iblk m c 0 t : Vec Ideal S2x1024x256 .f32) (ix3 b r k)
      = (m ((c : Thread nD τ).loc main_arg0) : S32x1024x256.Idx → EReal) (ix3 (graphOf t b) r k) := by
  obtain ⟨-, -, -, e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 2 + 1 * b.val = t.val * 2 + b.val; rw [e0]; omega
  | ⟨1, _⟩ => show win0_0.index t (1 : Fin 3) * 1024 + 1 * r.val = r.val; rw [e1]; omega
  | ⟨2, _⟩ => show win0_0.index t (2 : Fin 3) * 256 + 1 * k.val = k.val; rw [e2]; omega

/-- The adjacency block at point t: position (b, i, j) is the adjacency argument at (graph of b, i, j). -/
theorem adj_block (c : Dev nD) (t : Fin cfg0.N) (b : Fin 2) (i j : Fin 1024) :
    (iblk m c 1 t : Vec Ideal S2x1024x1024 .f32) (ix3 b i j)
      = (m ((c : Thread nD τ).loc main_arg1) : S32x1024x1024.Idx → EReal) (ix3 (graphOf t b) i j) := by
  obtain ⟨-, -, -, -, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 2 + 1 * b.val = t.val * 2 + b.val; rw [e0]; omega
  | ⟨1, _⟩ => show win0_1.index t (1 : Fin 3) * 1024 + 1 * i.val = i.val; rw [e1]; omega
  | ⟨2, _⟩ => show win0_1.index t (2 : Fin 3) * 1024 + 1 * j.val = j.val; rw [e2]; omega

/-- The relational weight block at any point is the whole argument. -/
theorem wrel_block (c : Dev nD) (t : Fin cfg0.N) (p o : Fin 256) :
    (iblk m c 2 t : Vec Ideal S256x256 .f32) (ix2 p o)
      = (m ((c : Thread nD τ).loc main_arg2) : S256x256.Idx → EReal) (ix2 p o) := by
  obtain ⟨-, -, -, -, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * p.val = p.val; rw [e0]; omega
  | ⟨1, _⟩ => show win0_2.index t (1 : Fin 2) * 256 + 1 * o.val = o.val; rw [e1]; omega

/-- The root weight block at any point is the whole argument. -/
theorem wroot_block (c : Dev nD) (t : Fin cfg0.N) (p o : Fin 256) :
    (iblk m c 4 t : Vec Ideal S256x256 .f32) (ix2 p o)
      = (m ((c : Thread nD τ).loc main_arg4) : S256x256.Idx → EReal) (ix2 p o) := by
  obtain ⟨-, -, -, -, -, -, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_4.index t (0 : Fin 2) * 256 + 1 * p.val = p.val; rw [e0]; omega
  | ⟨1, _⟩ => show win0_4.index t (1 : Fin 2) * 256 + 1 * o.val = o.val; rw [e1]; omega

/-- The bias row's block at any point, at (0, o): the bias argument at o. -/
theorem bias_block (c : Dev nD) (t : Fin cfg0.N) (o : Fin 256) :
    (iblk m c 3 t : Vec Ideal S1x256 .f32) (ix2 (0 : Fin 1) o)
      = (m ((c : Thread nD τ).loc main_arg3) : S256.Idx → EReal) (ix1 o) := by
  obtain ⟨-, -, -, -, -, -, -, -, -, -, -, e0, e1, -⟩ := idx_facts t
  unfold iblk
  rw [View.read_apply]
  show (V m c main_v0 : S1x256.Idx → EReal) _ = _
  rw [V_bias]
  refine Eq.trans (congrArg _ ?_) (rowOf_apply _ (0 : Fin 1) o)
  funext a
  apply Fin.ext
  match a with
  | ⟨0, _⟩ => show win0_3.index t (0 : Fin 2) * 1 + 1 * 0 = 0; rw [e0]
  | ⟨1, _⟩ => show win0_3.index t (1 : Fin 2) * 256 + 1 * o.val = o.val; rw [e1]; omega

/-- The scale row's block at any point, at (0, o): the scale argument at o. -/
theorem scale_block (c : Dev nD) (t : Fin cfg0.N) (o : Fin 256) :
    (iblk m c 5 t : Vec Ideal S1x256 .f32) (ix2 (0 : Fin 1) o)
      = (m ((c : Thread nD τ).loc main_arg5) : S256.Idx → EReal) (ix1 o) := by
  obtain ⟨-, -, -, -, -, -, -, -, -, -, -, -, -, -, -, e0, e1, -⟩ := idx_facts t
  unfold iblk
  rw [View.read_apply]
  show (V m c main_v1 : S1x256.Idx → EReal) _ = _
  rw [V_scale]
  refine Eq.trans (congrArg _ ?_) (rowOf_apply _ (0 : Fin 1) o)
  funext a
  apply Fin.ext
  match a with
  | ⟨0, _⟩ => show win0_5.index t (0 : Fin 2) * 1 + 1 * 0 = 0; rw [e0]
  | ⟨1, _⟩ => show win0_5.index t (1 : Fin 2) * 256 + 1 * o.val = o.val; rw [e1]; omega

/-- The shift row's block at any point, at (0, o): the shift argument at o. -/
theorem shift_block (c : Dev nD) (t : Fin cfg0.N) (o : Fin 256) :
    (iblk m c 6 t : Vec Ideal S1x256 .f32) (ix2 (0 : Fin 1) o)
      = (m ((c : Thread nD τ).loc main_arg6) : S256.Idx → EReal) (ix1 o) := by
  obtain ⟨-, -, -, -, -, -, -, -, -, -, -, -, -, -, -, -, -, e0, e1⟩ := idx_facts t
  unfold iblk
  rw [View.read_apply]
  show (V m c main_v2 : S1x256.Idx → EReal) _ = _
  rw [V_shift]
  refine Eq.trans (congrArg _ ?_) (rowOf_apply _ (0 : Fin 1) o)
  funext a
  apply Fin.ext
  match a with
  | ⟨0, _⟩ => show win0_6.index t (0 : Fin 2) * 1 + 1 * 0 = 0; rw [e0]
  | ⟨1, _⟩ => show win0_6.index t (1 : Fin 2) * 256 + 1 * o.val = o.val; rw [e1]; omega

end Cert.KernelIdeal.Blocks

end
-- ==== Proof.KernelResult.lean ====
/-
  From blocks to the array: after the kernel's run the output array is the specification's result.

  Point t writes back one block: graphs 2t and 2t + 1.  Position (b, i, o) of what it writes is the layer of position
  b of the point's own blocks; those blocks are graphs 2t + b of the feature and adjacency arguments and the whole
  parameter arrays, so the entry is the result at (2t + b, i, o) — the entry of the result array that this position of
  the block lands on.  The sixteen blocks tile the array along the graph axis (graph g lies in the block of point
  g / 2), and every point writes back, so the whole array ends holding the result.
-/
import proofs.«118598_j82755429859956_2_alg».proof.Proof.Gen.KernelIdeal.Value
import proofs.«118598_j82755429859956_2_alg».proof.Proof.KernelLayer
import proofs.«118598_j82755429859956_2_alg».proof.Proof.BlockReads
import proofs.«118598_j82755429859956_2_alg».proof.Proof.Spec

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array of core c's argument arrays as launched. -/
abbrev resultOf (c : Dev nD) : Buf (Elt Ideal) ((c : Thread nD τ).loc main_v3) :=
  Cert.Gnn.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- A BLOCK OF TWO GRAPHS IS TWO GRAPHS OF THE BATCH: if a block's feature and adjacency entries are those of graphs
    `G b` of the batch and its parameter blocks are the parameter arrays, the block's layer at (b, i, o) is the result at
    (G b, i, o). -/
theorem block_is_result (x : Vec Ideal S2x1024x256 .f32) (g s : Vec Ideal S1x256 .f32) (a : Vec Ideal S2x1024x1024 .f32)
    (wr : Vec Ideal S256x256 .f32) (br : Vec Ideal S1x256 .f32) (wo : Vec Ideal S256x256 .f32)
    (X : S32x1024x256.Idx → EReal) (A : S32x1024x1024.Idx → EReal) (Wr : S256x256.Idx → EReal) (Br : S256.Idx → EReal)
    (Wo : S256x256.Idx → EReal) (Gm Bt : S256.Idx → EReal) (G : Fin 2 → Fin 32)
    (hx : ∀ (b : Fin 2) (r : Fin 1024) (k : Fin 256), x (ix3 b r k) = X (ix3 (G b) r k))
    (ha : ∀ (b : Fin 2) (i j : Fin 1024), a (ix3 b i j) = A (ix3 (G b) i j))
    (hwr : ∀ p o : Fin 256, wr (ix2 p o) = Wr (ix2 p o)) (hbr : ∀ o : Fin 256, br (ix2 (0 : Fin 1) o) = Br (ix1 o))
    (hwo : ∀ p o : Fin 256, wo (ix2 p o) = Wo (ix2 p o)) (hg : ∀ o : Fin 256, g (ix2 (0 : Fin 1) o) = Gm (ix1 o))
    (hs : ∀ o : Fin 256, s (ix2 (0 : Fin 1) o) = Bt (ix1 o)) (b : Fin 2) (i : Fin 1024) (o : Fin 256) :
    E7 (F := Ideal) x g s a wr br wo (ix3 b i o) = Cert.Gnn.result X A Wr Br Wo Gm Bt (ix3 (G b) i o) := by
  rw [Cert.KernelIdeal.Layer.block_apply, Cert.Gnn.result_ix3]
  have e1 : Cert.KernelIdeal.Layer.weight wr = fun c o => Wr (ix2 c o) := funext fun c => funext fun o => hwr c o
  have e2 : Cert.KernelIdeal.Norm.param br = fun o => Br (ix1 o) := funext fun o => hbr o
  have e3 : Cert.KernelIdeal.Layer.weight wo = fun c o => Wo (ix2 c o) := funext fun c => funext fun o => hwo c o
  have e4 : Cert.KernelIdeal.Norm.param g = fun c => Gm (ix1 c) := funext fun o => hg o
  have e5 : Cert.KernelIdeal.Norm.param s = fun c => Bt (ix1 c) := funext fun o => hs o
  have e6 : Cert.KernelIdeal.Layer.feats x b = fun r c => X (ix3 (G b) r c) := funext fun r => funext fun k => hx b r k
  have e7 : Cert.KernelIdeal.Layer.edges a b = fun i j => A (ix3 (G b) i j) := funext fun i => funext fun j => ha b i j
  rw [e1, e2, e3, e4, e5, e6, e7]

/-- WHAT POINT t WRITES BACK is block t of the result. -/
theorem flushed_eq (c : Dev nD) (t : Fin cfg0.N) :
    (dats m 0 c).flushed 7 t = ((cfg0.win 7).blk t).view.read (Elt Ideal) (resultOf m c) := by
  obtain ⟨e0, e1, e2, -⟩ := idx_facts t
  show (cfg0.win 7).cut (grid0.coords t) ((dats m 0 c).after 7 t) = _
  rw [after0_7]
  unfold out0_7
  simp only [View.ld_unit_zero (S := S2x1024x256) hz3, View.ld_unit_zero (S := S2x1024x1024) hz3,
    View.ld_unit_zero (S := S256x256) hz2, View.ld_unit_zero (S := S1x256) hz2]
  refine funext fun (y : S2x1024x256.Idx) => ?_
  obtain ⟨b, i, o, rfl⟩ : ∃ (b : Fin 2) (i : Fin 1024) (o : Fin 256), y = ix3 b i o := ⟨y 0, y 1, y 2, eq_ix3 y⟩
  show View.canon [⟨r0_0, k0_pay1 (iblk m c 0 t) (k0_pay3 (iblk m c 0 t) (iblk m c 5 t) (iblk m c 6 t) (iblk m c 1 t)
      (iblk m c 2 t)) (k0_pay4 (iblk m c 0 t) (iblk m c 5 t) (iblk m c 6 t) (iblk m c 4 t)) (iblk m c 3 t)⟩] (ix3 b i o)
    = resultOf m c (((cfg0.win 7).blk t).view.emb (ix3 b i o))
  have hemb : ((cfg0.win 7).blk t).view.emb (ix3 b i o) = ix3 (graphOf t b) i o := by
    funext d
    apply Fin.ext
    match d with
    | ⟨0, _⟩ => show win0_7.index t (0 : Fin 3) * 2 + 1 * b.val = t.val * 2 + b.val; rw [e0]; omega
    | ⟨1, _⟩ => show win0_7.index t (1 : Fin 3) * 1024 + 1 * i.val = i.val; rw [e1]; omega
    | ⟨2, _⟩ => show win0_7.index t (2 : Fin 3) * 256 + 1 * o.val = o.val; rw [e2]; omega
  rw [hemb]
  refine (canon7_eq (F := Ideal) (iblk m c 0 t) (iblk m c 5 t) (iblk m c 6 t) (iblk m c 1 t) (iblk m c 2 t)
    (iblk m c 3 t) (iblk m c 4 t) (ix3 b i o)).trans ?_
  exact block_is_result (iblk m c 0 t) (iblk m c 5 t) (iblk m c 6 t) (iblk m c 1 t) (iblk m c 2 t) (iblk m c 3 t)
    (iblk m c 4 t) _ _ _ _ _ _ _ (graphOf t) (feat_block m c t) (adj_block m c t) (wrel_block m c t) (bias_block m c t)
    (wroot_block m c t) (scale_block m c t) (shift_block m c t) b i o

/-- An index of the array is in point t's block iff each coordinate is in the block's range on its axis. -/
theorem mem_blk (t : Fin cfg0.N) (idx : S32x1024x256.Idx) :
    idx ∈ ((cfg0.win 7).blk t).view.set ↔ ∀ d : Fin 3, win0_7.index t d * S2x1024x256.size d ≤ (idx d).val
      ∧ (idx d).val < win0_7.index t d * S2x1024x256.size d + S2x1024x256.size d := by
  show idx ∈ ((View.whole main_v3).slice (win0_7.rect t)).set ↔ _
  rw [View.set_slice_whole, Rect.mem_set_unit]
  exact Iff.rfl

/-- THE BLOCKS TILE THE ARRAY: graph g's entries lie in the block of point g / 2. -/
theorem covered (idx : S32x1024x256.Idx) :
    ∃ t : Fin cfg0.N, (cfg0.win 7).flush t = true ∧ idx ∈ ((cfg0.win 7).blk t).view.set := by
  have h0 : (idx 0).val < 32 := (idx 0).isLt
  have h1 : (idx 1).val < 1024 := (idx 1).isLt
  have h2 : (idx 2).val < 256 := (idx 2).isLt
  obtain ⟨t, ht⟩ : ∃ t : Fin cfg0.N, t.val = (idx 0).val / 2 :=
    ⟨⟨(idx 0).val / 2, by rw [show cfg0.N = 16 from N_0]; omega⟩, rfl⟩
  obtain ⟨e0, e1, e2, -⟩ := idx_facts t
  refine ⟨t, flush0_7 t, ?_⟩
  rw [mem_blk]
  intro d
  match d with
  | ⟨0, _⟩ =>
      show win0_7.index t (0 : Fin 3) * 2 ≤ (idx 0).val ∧ (idx 0).val < win0_7.index t (0 : Fin 3) * 2 + 2
      rw [e0, ht]; omega
  | ⟨1, _⟩ =>
      show win0_7.index t (1 : Fin 3) * 1024 ≤ (idx 1).val ∧ (idx 1).val < win0_7.index t (1 : Fin 3) * 1024 + 1024
      rw [e1]; omega
  | ⟨2, _⟩ =>
      show win0_7.index t (2 : Fin 3) * 256 ≤ (idx 2).val ∧ (idx 2).val < win0_7.index t (2 : Fin 3) * 256 + 256
      rw [e2]; omega

/-- THE OUTPUT ARRAY after the run is the result of the argument arrays as launched. -/
theorem final (c : Dev nD) : (dats m 0 c).arrAt 7 cfg0.N = resultOf m c :=
  (dats m 0 c).arrAt_eq_of_cover 7 (resultOf m c) (fun t _ => flushed_eq m c t) (covered)

/-- THE KERNEL'S RUN, READ: every weakly fair execution ends with the output array at the result and the seven
    arguments as launched. -/
theorem run : θ_run defs (onTc (τ := τ) (main (F := Ideal))) ⟨m, fun _ => 0, ρ⟩ fun r => ∀ c : Dev nD,
      r.2.mem ((c : Thread nD τ).loc main_v3) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Blocks

end
-- ==== Proof.RefLayer.lean ====
/-
  The reference, read entry by entry: its result array is the specification's.

  The reference computes on the whole [32, 1024, 256] batch: a sum along the feature axis from zero, divided by 256, is
  each row's mean; the centred rows are squared, summed and divided again for the variance; the reciprocal square root
  of the variance plus the small constant scales the centred rows, which the parameter vectors then scale and shift
  feature by feature.  One batched product aggregates along each graph's adjacency, two products with the weight
  matrices follow, the bias vector is added to the first, the sum is clamped at zero and added to the input.  Each
  stage's entry at (g, r, c) depends only on graph g, and on row r where the stage is row-wise, so chaining the stages
  gives, at (g, i, o), the layer of graph g at node i and output feature o.  A sum started from the float zero is the
  plain sum, since zero is neutral for addition on the extended reals.
-/
import proofs.«118598_j82755429859956_2_alg».proof.Proof.Gen.ReferenceIdeal.Read
import proofs.«118598_j82755429859956_2_alg».proof.Proof.Spec

noncomputable section

open scoped BigOperators

namespace Cert.ReferenceIdeal.Layer

open Cert.ReferenceIdeal Cert.ReferenceIdeal.Read Idealize.ShloMosaic Idealize.ShloMosaic.ValueIdx

variable (x0 : (⟨S32x1024x256, .f32⟩ : BufTy).Contents (Elt Ideal))
  (x1 : (⟨S32x1024x1024, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 x6 : (⟨S256, .f32⟩ : BufTy).Contents (Elt Ideal))

/-- The feature row (g, r) of the batch. -/
abbrev row (g : Fin 32) (r : Fin 1024) : Fin 256 → EReal := fun k => x0 (ix3 g r k)

/-- A length-256 parameter vector as a function of the feature. -/
abbrev vec (v : (⟨S256, .f32⟩ : BufTy).Contents (Elt Ideal)) : Fin 256 → EReal := fun c => v (ix1 c)

/-- Graph g's node features. -/
abbrev feats (g : Fin 32) : Fin 1024 → Fin 256 → EReal := fun r k => x0 (ix3 g r k)

/-- Graph g's adjacency. -/
abbrev edges (g : Fin 32) : Fin 1024 → Fin 1024 → EReal := fun i j => x1 (ix3 g i j)

/-- A [256, 256] weight matrix as a function of its two coordinates. -/
abbrev weight (w : (⟨S256x256, .f32⟩ : BufTy).Contents (Elt Ideal)) : Fin 256 → Fin 256 → EReal := fun c o => w (ix2 c o)

/-- The column of row means at (g, r, 0): the mean of row (g, r). -/
theorem mean_apply (g : Fin 32) (r : Fin 1024) (z : Fin 1) :
    val_main_v3 (F := Ideal) x0 (ix3 g r z) = Cert.Gnn.mean (row x0 g r) := by
  rw [val_main_v3_apply, val_main_v1_apply, val_main_v0_apply, val_main_v2_apply, val_main_cst_0_apply,
    val_main_cst_apply]
  show Ideal.div (Ideal.ofBits .f32 0x00000000#32 + ∑ k : Fin 256, x0 (idx_main_v0 (idx_main_v1 (ix3 g r z)) k))
    (Ideal.ofBits .f32 0x43800000#32) = _
  rw [Ideal.ofBits_zero_f32, zero_add]
  have hi : ∀ k : Fin 256, idx_main_v0 (idx_main_v1 (ix3 g r z)) k = ix3 g r k := fun k => by
    funext a; match a with | ⟨0, _⟩ => rfl | ⟨1, _⟩ => rfl | ⟨2, _⟩ => rfl
  simp only [hi]
  rfl

/-- The centred batch at (g, r, c), as first computed (for the variance). -/
theorem centred_apply (g : Fin 32) (r : Fin 1024) (c : Fin 256) :
    val_main_v5 (F := Ideal) x0 (ix3 g r c) = Cert.Gnn.centred (row x0 g r) c := by
  have hi : idx_main_v4 (ix3 g r c) = ix3 g r (0 : Fin 1) := by
    funext a; match a with | ⟨0, _⟩ => rfl | ⟨1, _⟩ => rfl | ⟨2, _⟩ => rfl
  rw [val_main_v5_apply, val_main_v4_apply, hi, mean_apply]
  rfl

/-- The centred batch at (g, r, c), as computed again (for the normalised rows). -/
theorem centred_apply' (g : Fin 32) (r : Fin 1024) (c : Fin 256) :
    val_main_v12 (F := Ideal) x0 (ix3 g r c) = Cert.Gnn.centred (row x0 g r) c := by
  have hi : idx_main_v11 (ix3 g r c) = ix3 g r (0 : Fin 1) := by
    funext a; match a with | ⟨0, _⟩ => rfl | ⟨1, _⟩ => rfl | ⟨2, _⟩ => rfl
  rw [val_main_v12_apply, val_main_v11_apply, hi, mean_apply]
  rfl

/-- The column of inverse deviations at (g, r, 0). -/
theorem invDev_apply (g : Fin 32) (r : Fin 1024) (z : Fin 1) :
    val_main_v15 (F := Ideal) x0 (ix3 g r z)
      = Ideal.rsqrt (Cert.Gnn.variance (row x0 g r) + Cert.Gnn.epsVar) := by
  rw [val_main_v15_apply, val_main_v14_apply, val_main_v10_apply, val_main_v8_apply, val_main_v7_apply,
    val_main_v9_apply, val_main_cst_2_apply, val_main_v13_apply, val_main_cst_3_apply, val_main_cst_1_apply]
  show Ideal.rsqrt (Ideal.div (Ideal.ofBits .f32 0x00000000#32
      + ∑ k : Fin 256, val_main_v6 (F := Ideal) x0 (idx_main_v7 (idx_main_v8 (ix3 g r z)) k))
    (Ideal.ofBits .f32 0x43800000#32) + Ideal.ofBits .f32 0x3727C5AC#32) = _
  rw [Ideal.ofBits_zero_f32, zero_add]
  have hs : ∀ k : Fin 256, val_main_v6 (F := Ideal) x0 (idx_main_v7 (idx_main_v8 (ix3 g r z)) k)
      = Cert.Gnn.centred (row x0 g r) k * Cert.Gnn.centred (row x0 g r) k := fun k => by
    have hi : idx_main_v7 (idx_main_v8 (ix3 g r z)) k = ix3 g r k := by
      funext a; match a with | ⟨0, _⟩ => rfl | ⟨1, _⟩ => rfl | ⟨2, _⟩ => rfl
    rw [hi, val_main_v6_apply, centred_apply]
    rfl
  simp only [hs]
  rfl

/-- The normalised batch at (g, r, c): row (g, r) layer-normalised with the two parameter vectors, at c. -/
theorem norm_apply (g : Fin 32) (r : Fin 1024) (c : Fin 256) :
    val_main_v23 (F := Ideal) x0 x5 x6 (ix3 g r c) = Cert.Gnn.norm (vec x5) (vec x6) (row x0 g r) c := by
  have h16 : idx_main_v16 (ix3 g r c) = ix3 g r (0 : Fin 1) := by
    funext a; match a with | ⟨0, _⟩ => rfl | ⟨1, _⟩ => rfl | ⟨2, _⟩ => rfl
  have h19 : idx_main_v18 (idx_main_v19 (ix3 g r c)) = ix1 c := by
    funext a; match a with | ⟨0, _⟩ => rfl
  have h22 : idx_main_v21 (idx_main_v22 (ix3 g r c)) = ix1 c := by
    funext a; match a with | ⟨0, _⟩ => rfl
  rw [val_main_v23_apply, val_main_v20_apply, val_main_v17_apply, val_main_v16_apply, val_main_v19_apply,
    val_main_v18_apply, val_main_v22_apply, val_main_v21_apply, h16, h19, h22, centred_apply', invDev_apply]
  rfl

/-- The batched product at (g, i, c): node i's aggregated messages in graph g. -/
theorem agg_apply (g : Fin 32) (i : Fin 1024) (c : Fin 256) :
    val_main_v24 (F := Ideal) x0 x1 x5 x6 (ix3 g i c)
      = Cert.Gnn.aggregate (vec x5) (vec x6) (feats x0 g) (edges x1 g) i c := by
  rw [val_main_v24_apply]
  refine Finset.sum_congr rfl fun j _ => ?_
  have hl : lidx_main_v24 (ix3 g i c) j = ix3 g i j := by
    funext a; match a with | ⟨0, _⟩ => rfl | ⟨1, _⟩ => rfl | ⟨2, _⟩ => rfl
  have hr : ridx_main_v24 (ix3 g i c) j = ix3 g j c := by
    funext a; match a with | ⟨0, _⟩ => rfl | ⟨1, _⟩ => rfl | ⟨2, _⟩ => rfl
  rw [hl, hr, norm_apply]

/-- The relational term at (g, i, o). -/
theorem rel_apply (g : Fin 32) (i : Fin 1024) (o : Fin 256) :
    val_main_v25 (F := Ideal) x0 x1 x2 x5 x6 (ix3 g i o)
      = ∑ c : Fin 256, Cert.Gnn.aggregate (vec x5) (vec x6) (feats x0 g) (edges x1 g) i c * weight x2 c o := by
  rw [val_main_v25_apply]
  refine Finset.sum_congr rfl fun c _ => ?_
  have hl : lidx_main_v25 (ix3 g i o) c = ix3 g i c := by
    funext a; match a with | ⟨0, _⟩ => rfl | ⟨1, _⟩ => rfl | ⟨2, _⟩ => rfl
  have hr : ridx_main_v25 (ix3 g i o) c = ix2 c o := by
    funext a; match a with | ⟨0, _⟩ => rfl | ⟨1, _⟩ => rfl
  rw [hl, hr, agg_apply]

/-- The root term at (g, i, o). -/
theorem root_apply (g : Fin 32) (i : Fin 1024) (o : Fin 256) :
    val_main_v29 (F := Ideal) x0 x4 x5 x6 (ix3 g i o)
      = ∑ c : Fin 256, Cert.Gnn.norm (vec x5) (vec x6) (feats x0 g i) c * weight x4 c o := by
  rw [val_main_v29_apply]
  refine Finset.sum_congr rfl fun c _ => ?_
  have hl : lidx_main_v29 (ix3 g i o) c = ix3 g i c := by
    funext a; match a with | ⟨0, _⟩ => rfl | ⟨1, _⟩ => rfl | ⟨2, _⟩ => rfl
  have hr : ridx_main_v29 (ix3 g i o) c = ix2 c o := by
    funext a; match a with | ⟨0, _⟩ => rfl | ⟨1, _⟩ => rfl
  rw [hl, hr, norm_apply]

/-- The reference's result at (g, i, o) is the specification's. -/
theorem result_apply (g : Fin 32) (i : Fin 1024) (o : Fin 256) :
    val_main_v32 (F := Ideal) x0 x1 x2 x3 x4 x5 x6 (ix3 g i o)
      = Cert.Gnn.result x0 x1 x2 x3 x4 x5 x6 (ix3 g i o) := by
  have h27 : idx_main_v26 (idx_main_v27 (ix3 g i o)) = ix1 o := by
    funext a; match a with | ⟨0, _⟩ => rfl
  rw [Cert.Gnn.result_ix3, val_main_v32_apply, val_main_v31_apply, val_main_v30_apply, val_main_v28_apply,
    val_main_v27_apply, val_main_v26_apply, val_main_call0_v0_apply, val_main_call0_cst_apply, h27, rel_apply,
    root_apply]
  rfl

/-- THE REFERENCE'S RESULT ARRAY is the specification's function of the seven argument arrays. -/
theorem result_eq : val_main_v32 (F := Ideal) x0 x1 x2 x3 x4 x5 x6 = Cert.Gnn.result x0 x1 x2 x3 x4 x5 x6 := by
  funext idx
  obtain ⟨g, i, o, rfl⟩ : ∃ (g : Fin 32) (i : Fin 1024) (o : Fin 256), idx = ix3 g i o :=
    ⟨idx 0, idx 1, idx 2, eq_ix3 idx⟩
  exact result_apply x0 x1 x2 x3 x4 x5 x6 g i o

end Cert.ReferenceIdeal.Layer

end
-- ==== Proof.lean ====
/- A dense graph-network layer, fused into one kernel that handles two graphs per grid point, computes the same array
   as its plain reference over the extended reals.

   The layer: each node's 256 features are layer-normalised (centred by the row mean, scaled by the reciprocal square
   root of the row variance plus a small constant, then scaled and shifted feature by feature); messages are aggregated
   along a dense adjacency, A · H; the update is X + max ((A · H) · W_rel + b_rel + H · W_root, 0).  Proof/Spec.lean
   states it as one function of the seven argument arrays, graph by graph.

   The reference computes it on the whole batch of 32 graphs: Proof/RefLayer.lean reads its forty host operations one
   at a time and finds, at (g, i, o), the layer of graph g.  The kernel computes it on blocks of two graphs, with the
   two small products done on the two graphs' rows stacked into one 2048-row matrix: Proof/KernelNorm.lean and
   Proof/KernelLayer.lean read the body's operations entry by entry and find, at position (b, i, o) of a block, the
   layer of the block's graph b; Proof/BlockReads.lean identifies each block with graphs 2t and 2t + 1 of the arguments
   (and the parameter rows with the parameter vectors), and Proof/KernelResult.lean puts the sixteen blocks together:
   they tile the batch, so the output array is the same function of the arguments.

   Both sides use the same operations in the same association — the same divisor 256, the same small constant, the
   relational term plus the bias first and the root term second — so no law of the extended reals beyond re-indexing
   a finite sum is needed, and the finiteness of the inputs is never used: the equality holds at every extended-real
   input.  Differences that are none over exact values: a sum along an axis from zero against a host reduction with
   initial value zero, a product into a zero accumulator against a host contraction, stacking two graphs' rows before a
   product with a weight matrix shared by all graphs, and the tiling of the batch into blocks.

   The three programs' runs (termination, no fault, arguments unchanged) are the generated frame of each kernel program
   and the reference's generated run; the kernel's idealisation rewrote nothing, so its conjunct is `True`. -/
import proofs.«118598_j82755429859956_2_alg».proof.Defs
import proofs.«118598_j82755429859956_2_alg».proof.Proof.Gen.Kernel
import proofs.«118598_j82755429859956_2_alg».proof.Proof.Gen.Kernel.Skeleton
import proofs.«118598_j82755429859956_2_alg».proof.Proof.Gen.Kernel.Launch
import proofs.«118598_j82755429859956_2_alg».proof.Proof.Gen.Kernel.Points
import proofs.«118598_j82755429859956_2_alg».proof.Proof.Gen.Kernel.Frame
import proofs.«118598_j82755429859956_2_alg».proof.Proof.Gen.KernelIdeal
import proofs.«118598_j82755429859956_2_alg».proof.Proof.Gen.KernelIdeal.Skeleton
import proofs.«118598_j82755429859956_2_alg».proof.Proof.Gen.KernelIdeal.Launch
import proofs.«118598_j82755429859956_2_alg».proof.Proof.Gen.KernelIdeal.Points
import proofs.«118598_j82755429859956_2_alg».proof.Proof.Gen.KernelIdeal.Frame
import proofs.«118598_j82755429859956_2_alg».proof.Proof.Gen.ReferenceIdeal
import proofs.«118598_j82755429859956_2_alg».proof.Proof.Gen.KernelIdeal.Value
import proofs.«118598_j82755429859956_2_alg».proof.Proof.Gen.ReferenceIdeal.Run
import proofs.«118598_j82755429859956_2_alg».proof.Proof.Gen.ReferenceIdeal.Read
import proofs.«118598_j82755429859956_2_alg».proof.Proof.Gen.Pre_finite_inputs
import proofs.«118598_j82755429859956_2_alg».proof.Proof.KernelResult
import proofs.«118598_j82755429859956_2_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it computes dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the seven arguments, the kernel's output array and the reference's result array are both
    the specification's result of those arguments: the kernel's by its blocks, the reference's stage by stage. -/
theorem algebraic : Cert.algebraic_KernelIdeal_ReferenceIdeal := by
  intro m ρ m' ρ' _ hagree
  refine ⟨fun c => Cert.KernelIdeal.Blocks.resultOf m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Layer.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
